-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 56
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S128x128, .f32⟩
  | .hbm, ⟨53, _⟩ => ⟨S128x128, .f32⟩
  | .hbm, ⟨54, _⟩ => ⟨S1x128, .f32⟩
  | .hbm, ⟨55, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x1, .f32⟩
  | .local _ .vmem, ⟨14, _⟩ => ⟨S10000x1, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x1 : S_.BroadcastsInDim S100000x1 (![] : Fin 0 → Fin S100000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v20) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run, with every buffer named at the end.

  The program is four segments: a stretch of host operations, the first tiled region, a second stretch, the second
  region. The buffer contents at each boundary are a fold through the program from the launch memory; the last
  boundary's contents are `Gen.W4`. Every weakly fair execution terminates, without a fault, in a memory that agrees with
  that last boundary on every buffer the program does not scope (`ends_at_last_boundary`). In particular the result
  buffer ends at the last boundary's contents and the eight arguments end as launched (`result_at_last_boundary`).
-/
import proofs.«100321_j75015898792666_2_alg».proof.Proof.Gen.KernelIdeal.Frame

set_option maxRecDepth 16384

noncomputable section

namespace Cert.KernelIdeal.Ends

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution terminates, nothing faulting, and the final memory
    holds, in every unscoped buffer of every core, the contents of the last segment boundary. -/
theorem ends_at_last_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer ends at the last boundary's contents, and the arguments end as launched. -/
theorem result_at_last_boundary : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (ends_at_last_boundary m ρ)

end Cert.KernelIdeal.Ends

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«100321_j75015898792666_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibSageLayer.lean ====
/-
  One layer of a mean-aggregating graph convolution, entry by entry, at the exact instance.

  With `agg` the sums of the neighbours' feature rows (M x K), `d` the clamped in-degrees as an M x 1 column, `x` the
  nodes' own features (M x K), `wl` and `wr` two K x N weight matrices and `b` a 1 x N bias row, entry (p, q) of the
  layer is
        ( ∑ k, (agg (p, k) / d (p, 0)) · wl (k, q)  +  b (0, q) )  +  ∑ k, x (p, k) · wr (k, q)
  (`layer`), and the rectifier takes the larger of an entry and zero (`rectify`). An entry reads row p of `agg`, `d` and
  `x` and nothing else of them (`layer_row`), so a block of rows of the layer is the layer of the blocks of rows.

  Two programs compute this array. A tile's body divides its block of `agg` by the degree column repeated across the
  columns, multiplies by `wl` into a zero accumulator, adds the bias row repeated down the rows, and adds the product
  of `x` and `wr` (`body_apply`). The host does the same with its own division, products and two broadcasts
  (`host_eq`). Both are `layer`, whatever the sizes; no law beyond the products read as plain sums is used, so nothing
  is asked of the entries (they may be infinite).
-/
import Idealize.ShloMosaic.PureOps.Ideal.Laws
import Idealize.ShloMosaic.Lib.ValueIdx
import Idealize.ShloMosaic.Lib.ValueLayout
import Idealize.ShloMosaic.Lib.Pipeline.Value
import proofs.«100321_j75015898792666_2_alg».proof.Proof.LibMatmul
import proofs.«100321_j75015898792666_2_alg».proof.Proof.LibRank2
import proofs.«100321_j75015898792666_2_alg».proof.Proof.LibKeepdims

noncomputable section

namespace Cert.Sage

open Idealize.ShloMosaic Idealize.ShloMosaic.ValueIdx

/-- Entry by entry: the mean of the neighbours through `wl`, plus the bias, plus the node itself through `wr`. -/
def layer {M K N : ℕ} (agg : (⟨2, ![M, K]⟩ : Shape).Idx → EReal) (d : (⟨2, ![M, 1]⟩ : Shape).Idx → EReal)
    (x : (⟨2, ![M, K]⟩ : Shape).Idx → EReal) (wl : (⟨2, ![K, N]⟩ : Shape).Idx → EReal)
    (b : (⟨2, ![1, N]⟩ : Shape).Idx → EReal) (wr : (⟨2, ![K, N]⟩ : Shape).Idx → EReal) :
    (⟨2, ![M, N]⟩ : Shape).Idx → EReal :=
  fun i => ((∑ k : Fin K, Ideal.div (agg (ix2 (i 0) k)) (d (ix2 (i 0) (0 : Fin 1))) * wl (ix2 k (i 1)))
      + b (ix2 (0 : Fin 1) (i 1)))
    + ∑ k : Fin K, x (ix2 (i 0) k) * wr (ix2 k (i 1))

theorem layer_apply {M K N : ℕ} (agg : (⟨2, ![M, K]⟩ : Shape).Idx → EReal) (d : (⟨2, ![M, 1]⟩ : Shape).Idx → EReal)
    (x : (⟨2, ![M, K]⟩ : Shape).Idx → EReal) (wl : (⟨2, ![K, N]⟩ : Shape).Idx → EReal)
    (b : (⟨2, ![1, N]⟩ : Shape).Idx → EReal) (wr : (⟨2, ![K, N]⟩ : Shape).Idx → EReal) (p : Fin M) (q : Fin N) :
    layer agg d x wl b wr (ix2 p q)
      = ((∑ k : Fin K, Ideal.div (agg (ix2 p k)) (d (ix2 p (0 : Fin 1))) * wl (ix2 k q)) + b (ix2 (0 : Fin 1) q))
        + ∑ k : Fin K, x (ix2 p k) * wr (ix2 k q) := rfl

/-- The larger of each entry and zero (zero as the all-zero bit pattern denotes it). -/
def rectify {s : Shape} (y : s.Idx → EReal) : s.Idx → EReal := fun i => max (y i) (Ideal.ofBits .f32 0x00000000#32)

theorem rectify_apply {s : Shape} (y : s.Idx → EReal) (i : s.Idx) :
    rectify y i = max (y i) (Ideal.ofBits .f32 0x00000000#32) := rfl

/-- Entry (p, q) of the layer reads row p only: inputs that agree along the rows read give equal entries. -/
theorem layer_row {M M' K N : ℕ}
    (agg : (⟨2, ![M, K]⟩ : Shape).Idx → EReal) (d : (⟨2, ![M, 1]⟩ : Shape).Idx → EReal) (x : (⟨2, ![M, K]⟩ : Shape).Idx → EReal)
    (agg' : (⟨2, ![M', K]⟩ : Shape).Idx → EReal) (d' : (⟨2, ![M', 1]⟩ : Shape).Idx → EReal) (x' : (⟨2, ![M', K]⟩ : Shape).Idx → EReal)
    (wl : (⟨2, ![K, N]⟩ : Shape).Idx → EReal) (b : (⟨2, ![1, N]⟩ : Shape).Idx → EReal) (wr : (⟨2, ![K, N]⟩ : Shape).Idx → EReal)
    (p : Fin M) (p' : Fin M') (q : Fin N)
    (hagg : ∀ k : Fin K, agg' (ix2 p' k) = agg (ix2 p k)) (hd : d' (ix2 p' (0 : Fin 1)) = d (ix2 p (0 : Fin 1)))
    (hx : ∀ k : Fin K, x' (ix2 p' k) = x (ix2 p k)) :
    layer agg' d' x' wl b wr (ix2 p' q) = layer agg d x wl b wr (ix2 p q) := by
  rw [layer_apply, layer_apply, hd]
  simp only [hagg, hx]

/-! ## The tile body -/

/-- The body's arithmetic at an entry: the quotient by the repeated degree column, the product into a zero accumulator,
    the repeated bias row, the second product. -/
theorem body_apply {M K N : ℕ}
    (wf : DotDims.WF ⟨2, ![M, K]⟩ ⟨2, ![K, N]⟩ ⟨2, ![M, N]⟩ [1] [0] [0] [1] [] []) (prec : Option ContractPrecision)
    (agg : FVec Ideal ⟨2, ![M, K]⟩ .f32) (d : FVec Ideal ⟨2, ![M, 1]⟩ .f32) (x : FVec Ideal ⟨2, ![M, K]⟩ .f32)
    (wl : FVec Ideal ⟨2, ![K, N]⟩ .f32) (b : FVec Ideal ⟨2, ![1, N]⟩ .f32) (wr : FVec Ideal ⟨2, ![K, N]⟩ .f32)
    (h3 : (⟨2, ![M, 1]⟩ : Shape).Broadcasts ⟨2, ![M, K]⟩) (h6 : (⟨2, ![1, N]⟩ : Shape).Broadcasts ⟨2, ![M, N]⟩)
    (p : Fin M) (q : Fin N) :
    addf (addf (matmul (Cert.MatmulAt.plainDims wf) prec (divf agg (broadcastTo ⟨2, ![M, K]⟩ d h3)) wl
              (constant (F := Ideal) ⟨2, ![M, N]⟩ .f32 0x00000000#32))
            (broadcastTo ⟨2, ![M, N]⟩ b h6))
        (matmul (Cert.MatmulAt.plainDims wf) prec x wr (constant (F := Ideal) ⟨2, ![M, N]⟩ .f32 0x00000000#32)) (ix2 p q)
      = layer agg d x wl b wr (ix2 p q) := by
  rw [layer_apply]
  show (matmul (Cert.MatmulAt.plainDims wf) prec (divf agg (broadcastTo ⟨2, ![M, K]⟩ d h3)) wl _ (ix2 p q)
        + broadcastTo ⟨2, ![M, N]⟩ b h6 (ix2 p q))
      + matmul (Cert.MatmulAt.plainDims wf) prec x wr _ (ix2 p q) = _
  rw [Cert.MatmulAt.matmul_zero_plain_apply wf prec _ wl p q, Cert.MatmulAt.matmul_zero_plain_apply wf prec x wr p q]
  have hb : broadcastTo ⟨2, ![M, N]⟩ b h6 (ix2 p q) = b (ix2 (0 : Fin 1) q) := by
    refine broadcastTo_apply b h6 (ix2 p q) (ix2 (0 : Fin 1) q) fun a => ?_
    match a with
    | ⟨0, _⟩ => show (0 : ℕ) = if (1 : ℕ) = 1 then 0 else _; rw [if_pos rfl]
    | ⟨1, _⟩ =>
      show q.val = if N = 1 then 0 else q.val
      split
      · have := q.isLt; omega
      · rfl
  rw [hb]
  congr 2
  refine Finset.sum_congr rfl fun k _ => ?_
  show Ideal.div (agg (ix2 p k)) (broadcastTo ⟨2, ![M, K]⟩ d h3 (ix2 p k)) * wl (ix2 k q) = _
  rw [Cert.Keepdims.broadcastTo_a1_ab_apply d h3 p k]

/-! ## The host's operations -/

variable {α : Type}

/-- An M x 1 column repeated across n columns reads, at (p, q), the column at (p, 0). -/
theorem bcast_col_across_apply {M n : ℕ} (v : (⟨2, ![M, 1]⟩ : Shape).Idx → α)
    (h : (⟨2, ![M, 1]⟩ : Shape).BroadcastsInDim ⟨2, ![M, n]⟩ (![0, 1] : Fin 2 → Fin 2)) (p : Fin M) (q : Fin n) :
    broadcastInDim ⟨2, ![M, n]⟩ ![0, 1] h v (ix2 p q) = v (ix2 p (0 : Fin 1)) :=
  broadcastInDim_apply ![0, 1] h v (ix2 p q) (ix2 p (0 : Fin 1)) fun a => match a with
    | ⟨0, _⟩ => by
      show p.val = if M = 1 then 0 else p.val
      split
      · have := p.isLt; omega
      · rfl
    | ⟨1, _⟩ => by show (0 : ℕ) = if (1 : ℕ) = 1 then 0 else _; rw [if_pos rfl]

/-- A 1 x n row repeated down M rows reads, at (p, q), the row at (0, q). -/
theorem bcast_row_down_apply {M n : ℕ} (v : (⟨2, ![1, n]⟩ : Shape).Idx → α)
    (h : (⟨2, ![1, n]⟩ : Shape).BroadcastsInDim ⟨2, ![M, n]⟩ (![0, 1] : Fin 2 → Fin 2)) (p : Fin M) (q : Fin n) :
    broadcastInDim ⟨2, ![M, n]⟩ ![0, 1] h v (ix2 p q) = v (ix2 (0 : Fin 1) q) :=
  broadcastInDim_apply ![0, 1] h v (ix2 p q) (ix2 (0 : Fin 1) q) fun a => match a with
    | ⟨0, _⟩ => by show (0 : ℕ) = if (1 : ℕ) = 1 then 0 else _; rw [if_pos rfl]
    | ⟨1, _⟩ => by
      show q.val = if n = 1 then 0 else q.val
      split
      · have := q.isLt; omega
      · rfl

/-- The host's layer at an entry. -/
theorem host_apply {M K N : ℕ}
    (wf : DotDims.WF ⟨2, ![M, K]⟩ ⟨2, ![K, N]⟩ ⟨2, ![M, N]⟩ [1] [0] [0] [1] [] [])
    (agg : FVec Ideal ⟨2, ![M, K]⟩ .f32) (d : FVec Ideal ⟨2, ![M, 1]⟩ .f32) (x : FVec Ideal ⟨2, ![M, K]⟩ .f32)
    (wl : FVec Ideal ⟨2, ![K, N]⟩ .f32) (b : FVec Ideal ⟨2, ![1, N]⟩ .f32) (wr : FVec Ideal ⟨2, ![K, N]⟩ .f32)
    (hd : (⟨2, ![M, 1]⟩ : Shape).BroadcastsInDim ⟨2, ![M, K]⟩ (![0, 1] : Fin 2 → Fin 2))
    (hb : (⟨2, ![1, N]⟩ : Shape).BroadcastsInDim ⟨2, ![M, N]⟩ (![0, 1] : Fin 2 → Fin 2)) (p : Fin M) (q : Fin N) :
    addf (addf (Host.dotGeneral (Cert.MatmulAt.plainDims wf) none (Host.divf agg (broadcastInDim ⟨2, ![M, K]⟩ ![0, 1] hd d)) wl)
            (broadcastInDim ⟨2, ![M, N]⟩ ![0, 1] hb b))
        (Host.dotGeneral (Cert.MatmulAt.plainDims wf) none x wr) (ix2 p q)
      = layer agg d x wl b wr (ix2 p q) := by
  rw [layer_apply]
  show (Host.dotGeneral (Cert.MatmulAt.plainDims wf) none (Host.divf agg (broadcastInDim ⟨2, ![M, K]⟩ ![0, 1] hd d)) wl (ix2 p q)
        + broadcastInDim ⟨2, ![M, N]⟩ ![0, 1] hb b (ix2 p q))
      + Host.dotGeneral (Cert.MatmulAt.plainDims wf) none x wr (ix2 p q) = _
  rw [Cert.Rank2.dotGeneral_plain_apply wf none _ wl p q, Cert.Rank2.dotGeneral_plain_apply wf none x wr p q,
    bcast_row_down_apply b hb p q]
  congr 2
  refine Finset.sum_congr rfl fun k _ => ?_
  show Ideal.div (agg (ix2 p k)) (broadcastInDim ⟨2, ![M, K]⟩ ![0, 1] hd d (ix2 p k)) * wl (ix2 k q) = _
  rw [bcast_col_across_apply d hd p k]

/-- The host's layer is the array `layer`. -/
theorem host_eq {M K N : ℕ}
    (wf : DotDims.WF ⟨2, ![M, K]⟩ ⟨2, ![K, N]⟩ ⟨2, ![M, N]⟩ [1] [0] [0] [1] [] [])
    (agg : FVec Ideal ⟨2, ![M, K]⟩ .f32) (d : FVec Ideal ⟨2, ![M, 1]⟩ .f32) (x : FVec Ideal ⟨2, ![M, K]⟩ .f32)
    (wl : FVec Ideal ⟨2, ![K, N]⟩ .f32) (b : FVec Ideal ⟨2, ![1, N]⟩ .f32) (wr : FVec Ideal ⟨2, ![K, N]⟩ .f32)
    (hd : (⟨2, ![M, 1]⟩ : Shape).BroadcastsInDim ⟨2, ![M, K]⟩ (![0, 1] : Fin 2 → Fin 2))
    (hb : (⟨2, ![1, N]⟩ : Shape).BroadcastsInDim ⟨2, ![M, N]⟩ (![0, 1] : Fin 2 → Fin 2)) :
    addf (addf (Host.dotGeneral (Cert.MatmulAt.plainDims wf) none (Host.divf agg (broadcastInDim ⟨2, ![M, K]⟩ ![0, 1] hd d)) wl)
            (broadcastInDim ⟨2, ![M, N]⟩ ![0, 1] hb b))
        (Host.dotGeneral (Cert.MatmulAt.plainDims wf) none x wr)
      = layer agg d x wl b wr := by
  funext j
  obtain ⟨p, q, rfl⟩ : ∃ (p : Fin M) (q : Fin N), j = ix2 p q := ⟨j 0, j 1, eq_ix2 j⟩
  exact host_apply wf agg d x wl b wr hd hb p q

/-- The host's rectifier: the larger of each entry and a zero spread over the array. -/
theorem host_rectify {s : Shape} (y : FVec Ideal s .f32)
    (h : (⟨0, ![]⟩ : Shape).BroadcastsInDim s (![] : Fin 0 → Fin s.rank)) :
    maximumf y (broadcastInDim s ![] h (constant (F := Ideal) ⟨0, ![]⟩ .f32 0x00000000#32)) = rectify y := by
  funext i
  exact congrArg (max (y i))
    (broadcastInDim_apply ![] h (constant (F := Ideal) ⟨0, ![]⟩ .f32 0x00000000#32) i (fun a => a.elim0) (fun a => a.elim0))

end Cert.Sage

end
-- ==== Proof.Tile0.lean ====
/-
  The first tiled region: the array it leaves, as one function of the arrays it finds.

  The region walks ten grid points. At point t it stages rows 10000 t … 10000 t + 9999 of the neighbour sums, of the
  clamped degree column and of the node features, and the two weight matrices and the bias row whole; its body stores
  the rectified layer of those blocks into rows 10000 t … 10000 t + 9999 of the result. An entry of the layer reads one
  row of its inputs, so what point t writes back is that block of rows of the rectified layer of the WHOLE arrays
  (`flushed_eq`); the ten blocks cover the result (`cover`), so the result ends as the rectified layer of the arrays the
  region was entered with (`whole`).
-/
import proofs.«100321_j75015898792666_2_alg».proof.Proof.Gen.KernelIdeal.Frame
import proofs.«100321_j75015898792666_2_alg».proof.Proof.LibSageLayer

set_option maxRecDepth 16384

noncomputable section

namespace Cert.KernelIdeal.Tile0

open Cert.KernelIdeal Cert.KernelIdeal.Gen
open Idealize.ShloMosaic Idealize.ShloMosaic.TcCoe Idealize.ShloMosaic.ValueIdx Idealize.SL.Sem
open Idealize.ShloMosaic.Pipeline (Dat)
open Cert.Sage

variable (V : (c : Dev nD) → (b : Ref sig .tc) → Buf (Elt Ideal) ((c : Thread nD τ).loc b))

theorem hz : (![0, 0] : Fin 2 → Nat) = fun _ => 0 := funext fun a => by fin_cases a <;> rfl

/-- Row r of the block at point t is row 10000 t + r of the array. -/
def row (t : Fin cfg0.N) (r : Fin 10000) : Fin 100000 :=
  ⟨t.val * 10000 + r.val, by have := t.isLt; have hN : cfg0.N = 10 := N_0; have := r.isLt; omega⟩

/-- The index maps over the grid: the three row-tiled inputs and the result move down one block of rows per point; the
    weights and the bias stay at the one block they have. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-! ## The blocks the body loads, read at an entry -/

theorem blk_agg (c : Dev nD) (t : Fin cfg0.N) (r : Fin 10000) (k : Fin 128) :
    (iblk0 V c 0 t : Vec Ideal S10000x128 .f32) (ix2 r k) = (V c main_v20 : S100000x128.Idx → EReal) (ix2 (row t r) k) := by
  obtain ⟨⟨e0, e1⟩, -⟩ := index_facts t
  unfold iblk0
  rw [View.read_apply]
  show V c main_v20 _ = V c main_v20 _
  congr 1
  funext a
  apply Fin.ext
  match a with
  | ⟨0, _⟩ => show win0_0.index t (0 : Fin 2) * 10000 + 1 * r.val = t.val * 10000 + r.val; rw [e0]; omega
  | ⟨1, _⟩ => show win0_0.index t (1 : Fin 2) * 128 + 1 * k.val = k.val; rw [e1]; omega

theorem blk_deg (c : Dev nD) (t : Fin cfg0.N) (r : Fin 10000) (u : Fin 1) :
    (iblk0 V c 1 t : Vec Ideal S10000x1 .f32) (ix2 r u) = (V c main_v10 : S100000x1.Idx → EReal) (ix2 (row t r) u) := by
  obtain ⟨-, ⟨e0, e1⟩, -⟩ := index_facts t
  unfold iblk0
  rw [View.read_apply]
  show V c main_v10 _ = V c main_v10 _
  congr 1
  funext a
  apply Fin.ext
  match a with
  | ⟨0, _⟩ => show win0_1.index t (0 : Fin 2) * 10000 + 1 * r.val = t.val * 10000 + r.val; rw [e0]; omega
  | ⟨1, _⟩ => show win0_1.index t (1 : Fin 2) * 1 + 1 * u.val = u.val; rw [e1]; omega

theorem blk_x (c : Dev nD) (t : Fin cfg0.N) (r : Fin 10000) (k : Fin 128) :
    (iblk0 V c 2 t : Vec Ideal S10000x128 .f32) (ix2 r k) = (V c main_arg0 : S100000x128.Idx → EReal) (ix2 (row t r) k) := by
  obtain ⟨-, -, ⟨e0, e1⟩, -⟩ := index_facts t
  unfold iblk0
  rw [View.read_apply]
  show V c main_arg0 _ = V c main_arg0 _
  congr 1
  funext a
  apply Fin.ext
  match a with
  | ⟨0, _⟩ => show win0_2.index t (0 : Fin 2) * 10000 + 1 * r.val = t.val * 10000 + r.val; rw [e0]; omega
  | ⟨1, _⟩ => show win0_2.index t (1 : Fin 2) * 128 + 1 * k.val = k.val; rw [e1]; omega

theorem blk_wl (c : Dev nD) (t : Fin cfg0.N) : (iblk0 V c 3 t : Vec Ideal S128x128 .f32) = (V c main_v21 : S128x128.Idx → EReal) := by
  obtain ⟨-, -, -, ⟨e0, e1⟩, -⟩ := index_facts t
  funext y
  unfold iblk0
  rw [View.read_apply]
  show V c main_v21 _ = V c main_v21 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem blk_b (c : Dev nD) (t : Fin cfg0.N) : (iblk0 V c 4 t : Vec Ideal S1x128 .f32) = (V c main_v23 : S1x128.Idx → EReal) := by
  obtain ⟨-, -, -, -, ⟨e0, e1⟩, -⟩ := index_facts t
  funext y
  unfold iblk0
  rw [View.read_apply]
  show V c main_v23 _ = V c main_v23 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem blk_wr (c : Dev nD) (t : Fin cfg0.N) : (iblk0 V c 5 t : Vec Ideal S128x128 .f32) = (V c main_v22 : S128x128.Idx → EReal) := by
  obtain ⟨-, -, -, -, -, ⟨e0, e1⟩, -⟩ := index_facts t
  funext y
  unfold iblk0
  rw [View.read_apply]
  show V c main_v22 _ = V c main_v22 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-! ## What the body stores, at an entry -/

/-- The stored value is the rectified layer of the loaded blocks. -/
theorem stored_apply (v0 : Vec Ideal S10000x128 .f32) (v2 : Vec Ideal S10000x1 .f32) (v6 : Vec Ideal S128x128 .f32)
    (v9 : Vec Ideal S1x128 .f32) (v13 : Vec Ideal S10000x128 .f32) (v14 : Vec Ideal S128x128 .f32) (p : Fin 10000) (q : Fin 128) :
    k0_pay1 v0 v2 v6 v9 v13 v14 (ix2 p q) = rectify (layer v0 v2 v13 v6 v9 v14) (ix2 p q) := by
  unfold k0_pay1
  simp only [shapeCast_self]
  exact congrArg (fun z => max z (Ideal.ofBits .f32 0x00000000#32))
    (body_apply dot_S10000x128_S128x128_S10000x128_1_0_0_1_n_n_wf (some .fp32) v0 v2 v13 v6 v9 v14
      broadcasts_S10000x1_S10000x128 broadcasts_S1x128_S10000x128 p q)

/-! ## From the blocks to the array -/

/-- The array the region leaves: the rectified layer of the arrays it finds. -/
def result (c : Dev nD) : S100000x128.Idx → EReal :=
  rectify (layer (V c main_v20 : S100000x128.Idx → EReal) (V c main_v10 : S100000x1.Idx → EReal)
    (V c main_arg0 : S100000x128.Idx → EReal) (V c main_v21 : S128x128.Idx → EReal) (V c main_v23 : S1x128.Idx → EReal)
    (V c main_v22 : S128x128.Idx → EReal))

/-- What point t writes back is block t of `result`. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz,
    View.ld_unit_zero (S := S128x128) hz, View.ld_unit_zero (S := S1x128) hz]
  rw [blk_wl V c t, blk_b V c t, blk_wr V c t]
  obtain ⟨-, -, -, -, -, -, ⟨e0, e1⟩⟩ := index_facts t
  funext j
  obtain ⟨r, q, rfl⟩ : ∃ (r : Fin 10000) (q : Fin 128), j = ix2 r q := ⟨j 0, j 1, eq_ix2 j⟩
  rw [View.read_apply]
  have he : ((cfg0.win 6).blk t).view.emb (ix2 r q) = ix2 (row t r) q := by
    funext a
    apply Fin.ext
    match a with
    | ⟨0, _⟩ => show win0_6.index t (0 : Fin 2) * 10000 + 1 * r.val = t.val * 10000 + r.val; rw [e0]; omega
    | ⟨1, _⟩ => show win0_6.index t (1 : Fin 2) * 128 + 1 * q.val = q.val; rw [e1]; omega
  show k0_pay1 (iblk0 V c 0 t) (iblk0 V c 1 t) (V c main_v21) (V c main_v23) (iblk0 V c 2 t) (V c main_v22) (ix2 r q)
    = result V c (((cfg0.win 6).blk t).view.emb (ix2 r q))
  rw [he, stored_apply]
  unfold result
  rw [rectify_apply, rectify_apply]
  exact congrArg (fun z => max z (Ideal.ofBits .f32 0x00000000#32))
    (layer_row _ _ _ _ _ _ _ _ _ (row t r) r q (fun k => blk_agg V c t r k) (blk_deg V c t r 0) (fun k => blk_x V c t r k))

/-- An index of the result is in point t's block iff each coordinate is in the block's range on its axis. -/
theorem mem_blk (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v24).slice (win0_6.rect t)).set ↔ _
  rw [View.set_slice_whole, Rect.mem_set_unit]
  exact Iff.rfl

/-- Every index of the result is in the block of the point its row falls in. -/
theorem cover (i : S100000x128.Idx) : ∃ t : Fin cfg0.N, (cfg0.win 6).flush t = true ∧ i ∈ ((cfg0.win 6).blk t).view.set := by
  have hN : cfg0.N = 10 := N_0
  have hi0 : (i 0).val < 100000 := (i 0).isLt
  have hi1 : (i 1).val < 128 := (i 1).isLt
  refine ⟨⟨(i 0).val / 10000, by omega⟩, flush0_6 _, ?_⟩
  rw [mem_blk]
  obtain ⟨-, -, -, -, -, -, ⟨e0, e1⟩⟩ := index_facts ⟨(i 0).val / 10000, by omega⟩
  intro a
  match a with
  | ⟨0, _⟩ =>
    show win0_6.index _ (0 : Fin 2) * 10000 ≤ (i 0).val ∧ (i 0).val < win0_6.index _ (0 : Fin 2) * 10000 + 10000
    rw [e0]; show (i 0).val / 10000 * 10000 ≤ (i 0).val ∧ (i 0).val < (i 0).val / 10000 * 10000 + 10000; omega
  | ⟨1, _⟩ =>
    show win0_6.index _ (1 : Fin 2) * 128 ≤ (i 1).val ∧ (i 1).val < win0_6.index _ (1 : Fin 2) * 128 + 128
    rw [e1]; omega

/-- The result array after the region. -/
theorem whole (c : Dev nD) : (dat0 V c).arrAt 6 cfg0.N = result V c :=
  (dat0 V c).arrAt_eq_of_cover 6 (result V c) (fun t _ => flushed_eq V c t) cover

end Cert.KernelIdeal.Tile0

end
-- ==== Proof.Tile1.lean ====
/-
  The second tiled region: the array it leaves, as one function of the arrays it finds.

  As the first region, without the rectifier: at point t it stages rows 10000 t … 10000 t + 9999 of the neighbour sums
  (now of the first layer's output), of the clamped degree column and of the first layer's output, and the second
  layer's weight matrices and bias row whole; its body stores the layer of those blocks into the same rows of the
  result. What point t writes back is that block of rows of the layer of the WHOLE arrays (`flushed_eq`); the ten
  blocks cover the result (`cover`), so the result ends as the layer of the arrays the region was entered with (`whole`).
-/
import proofs.«100321_j75015898792666_2_alg».proof.Proof.Gen.KernelIdeal.Frame
import proofs.«100321_j75015898792666_2_alg».proof.Proof.LibSageLayer

set_option maxRecDepth 16384

noncomputable section

namespace Cert.KernelIdeal.Tile1

open Cert.KernelIdeal Cert.KernelIdeal.Gen
open Idealize.ShloMosaic Idealize.ShloMosaic.TcCoe Idealize.ShloMosaic.ValueIdx Idealize.SL.Sem
open Idealize.ShloMosaic.Pipeline (Dat)
open Cert.Sage

variable (V : (c : Dev nD) → (b : Ref sig .tc) → Buf (Elt Ideal) ((c : Thread nD τ).loc b))

theorem hz : (![0, 0] : Fin 2 → Nat) = fun _ => 0 := funext fun a => by fin_cases a <;> rfl

/-- Row r of the block at point t is row 10000 t + r of the array. -/
def row (t : Fin cfg1.N) (r : Fin 10000) : Fin 100000 :=
  ⟨t.val * 10000 + r.val, by have := t.isLt; have hN : cfg1.N = 10 := N_1; have := r.isLt; omega⟩

/-- The index maps over the grid: the three row-tiled inputs and the result move down one block of rows per point; the
    weights and the bias stay at the one block they have. -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-! ## The blocks the body loads, read at an entry -/

theorem blk_agg (c : Dev nD) (t : Fin cfg1.N) (r : Fin 10000) (k : Fin 128) :
    (iblk1 V c 0 t : Vec Ideal S10000x128 .f32) (ix2 r k) = (V c main_v34 : S100000x128.Idx → EReal) (ix2 (row t r) k) := by
  obtain ⟨⟨e0, e1⟩, -⟩ := index_facts t
  unfold iblk1
  rw [View.read_apply]
  show V c main_v34 _ = V c main_v34 _
  congr 1
  funext a
  apply Fin.ext
  match a with
  | ⟨0, _⟩ => show win1_0.index t (0 : Fin 2) * 10000 + 1 * r.val = t.val * 10000 + r.val; rw [e0]; omega
  | ⟨1, _⟩ => show win1_0.index t (1 : Fin 2) * 128 + 1 * k.val = k.val; rw [e1]; omega

theorem blk_deg (c : Dev nD) (t : Fin cfg1.N) (r : Fin 10000) (u : Fin 1) :
    (iblk1 V c 1 t : Vec Ideal S10000x1 .f32) (ix2 r u) = (V c main_v10 : S100000x1.Idx → EReal) (ix2 (row t r) u) := by
  obtain ⟨-, ⟨e0, e1⟩, -⟩ := index_facts t
  unfold iblk1
  rw [View.read_apply]
  show V c main_v10 _ = V c main_v10 _
  congr 1
  funext a
  apply Fin.ext
  match a with
  | ⟨0, _⟩ => show win1_1.index t (0 : Fin 2) * 10000 + 1 * r.val = t.val * 10000 + r.val; rw [e0]; omega
  | ⟨1, _⟩ => show win1_1.index t (1 : Fin 2) * 1 + 1 * u.val = u.val; rw [e1]; omega

theorem blk_x (c : Dev nD) (t : Fin cfg1.N) (r : Fin 10000) (k : Fin 128) :
    (iblk1 V c 2 t : Vec Ideal S10000x128 .f32) (ix2 r k) = (V c main_v24 : S100000x128.Idx → EReal) (ix2 (row t r) k) := by
  obtain ⟨-, -, ⟨e0, e1⟩, -⟩ := index_facts t
  unfold iblk1
  rw [View.read_apply]
  show V c main_v24 _ = V c main_v24 _
  congr 1
  funext a
  apply Fin.ext
  match a with
  | ⟨0, _⟩ => show win1_2.index t (0 : Fin 2) * 10000 + 1 * r.val = t.val * 10000 + r.val; rw [e0]; omega
  | ⟨1, _⟩ => show win1_2.index t (1 : Fin 2) * 128 + 1 * k.val = k.val; rw [e1]; omega

theorem blk_wl (c : Dev nD) (t : Fin cfg1.N) : (iblk1 V c 3 t : Vec Ideal S128x128 .f32) = (V c main_v35 : S128x128.Idx → EReal) := by
  obtain ⟨-, -, -, ⟨e0, e1⟩, -⟩ := index_facts t
  funext y
  unfold iblk1
  rw [View.read_apply]
  show V c main_v35 _ = V c main_v35 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem blk_b (c : Dev nD) (t : Fin cfg1.N) : (iblk1 V c 4 t : Vec Ideal S1x128 .f32) = (V c main_v37 : S1x128.Idx → EReal) := by
  obtain ⟨-, -, -, -, ⟨e0, e1⟩, -⟩ := index_facts t
  funext y
  unfold iblk1
  rw [View.read_apply]
  show V c main_v37 _ = V c main_v37 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem blk_wr (c : Dev nD) (t : Fin cfg1.N) : (iblk1 V c 5 t : Vec Ideal S128x128 .f32) = (V c main_v36 : S128x128.Idx → EReal) := by
  obtain ⟨-, -, -, -, -, ⟨e0, e1⟩, -⟩ := index_facts t
  funext y
  unfold iblk1
  rw [View.read_apply]
  show V c main_v36 _ = V c main_v36 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-! ## What the body stores, at an entry -/

/-- The stored value is the layer of the loaded blocks. -/
theorem stored_apply (v0 : Vec Ideal S10000x128 .f32) (v2 : Vec Ideal S10000x1 .f32) (v6 : Vec Ideal S128x128 .f32)
    (v9 : Vec Ideal S1x128 .f32) (v13 : Vec Ideal S10000x128 .f32) (v14 : Vec Ideal S128x128 .f32) (p : Fin 10000) (q : Fin 128) :
    k1_pay1 v0 v2 v6 v9 v13 v14 (ix2 p q) = layer v0 v2 v13 v6 v9 v14 (ix2 p q) := by
  unfold k1_pay1
  simp only [shapeCast_self]
  exact body_apply dot_S10000x128_S128x128_S10000x128_1_0_0_1_n_n_wf (some .fp32) v0 v2 v13 v6 v9 v14
    broadcasts_S10000x1_S10000x128 broadcasts_S1x128_S10000x128 p q

/-! ## From the blocks to the array -/

/-- The array the region leaves: the layer of the arrays it finds. -/
def result (c : Dev nD) : S100000x128.Idx → EReal :=
  layer (V c main_v34 : S100000x128.Idx → EReal) (V c main_v10 : S100000x1.Idx → EReal)
    (V c main_v24 : S100000x128.Idx → EReal) (V c main_v35 : S128x128.Idx → EReal) (V c main_v37 : S1x128.Idx → EReal)
    (V c main_v36 : S128x128.Idx → EReal)

/-- What point t writes back is block t of `result`. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz,
    View.ld_unit_zero (S := S128x128) hz, View.ld_unit_zero (S := S1x128) hz]
  rw [blk_wl V c t, blk_b V c t, blk_wr V c t]
  obtain ⟨-, -, -, -, -, -, ⟨e0, e1⟩⟩ := index_facts t
  funext j
  obtain ⟨r, q, rfl⟩ : ∃ (r : Fin 10000) (q : Fin 128), j = ix2 r q := ⟨j 0, j 1, eq_ix2 j⟩
  rw [View.read_apply]
  have he : ((cfg1.win 6).blk t).view.emb (ix2 r q) = ix2 (row t r) q := by
    funext a
    apply Fin.ext
    match a with
    | ⟨0, _⟩ => show win1_6.index t (0 : Fin 2) * 10000 + 1 * r.val = t.val * 10000 + r.val; rw [e0]; omega
    | ⟨1, _⟩ => show win1_6.index t (1 : Fin 2) * 128 + 1 * q.val = q.val; rw [e1]; omega
  show k1_pay1 (iblk1 V c 0 t) (iblk1 V c 1 t) (V c main_v35) (V c main_v37) (iblk1 V c 2 t) (V c main_v36) (ix2 r q)
    = result V c (((cfg1.win 6).blk t).view.emb (ix2 r q))
  rw [he, stored_apply]
  unfold result
  exact layer_row _ _ _ _ _ _ _ _ _ (row t r) r q (fun k => blk_agg V c t r k) (blk_deg V c t r 0) (fun k => blk_x V c t r k)

/-- An index of the result is in point t's block iff each coordinate is in the block's range on its axis. -/
theorem mem_blk (t : Fin cfg1.N) (i : S100000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v38).slice (win1_6.rect t)).set ↔ _
  rw [View.set_slice_whole, Rect.mem_set_unit]
  exact Iff.rfl

/-- Every index of the result is in the block of the point its row falls in. -/
theorem cover (i : S100000x128.Idx) : ∃ t : Fin cfg1.N, (cfg1.win 6).flush t = true ∧ i ∈ ((cfg1.win 6).blk t).view.set := by
  have hN : cfg1.N = 10 := N_1
  have hi0 : (i 0).val < 100000 := (i 0).isLt
  have hi1 : (i 1).val < 128 := (i 1).isLt
  refine ⟨⟨(i 0).val / 10000, by omega⟩, flush1_6 _, ?_⟩
  rw [mem_blk]
  obtain ⟨-, -, -, -, -, -, ⟨e0, e1⟩⟩ := index_facts ⟨(i 0).val / 10000, by omega⟩
  intro a
  match a with
  | ⟨0, _⟩ =>
    show win1_6.index _ (0 : Fin 2) * 10000 ≤ (i 0).val ∧ (i 0).val < win1_6.index _ (0 : Fin 2) * 10000 + 10000
    rw [e0]; show (i 0).val / 10000 * 10000 ≤ (i 0).val ∧ (i 0).val < (i 0).val / 10000 * 10000 + 10000; omega
  | ⟨1, _⟩ =>
    show win1_6.index _ (1 : Fin 2) * 128 ≤ (i 1).val ∧ (i 1).val < win1_6.index _ (1 : Fin 2) * 128 + 128
    rw [e1]; omega

/-- The result array after the region. -/
theorem whole (c : Dev nD) : (dat1 V c).arrAt 6 cfg1.N = result V c :=
  (dat1 V c).arrAt_eq_of_cover 6 (result V c) (fun t _ => flushed_eq V c t) cover

end Cert.KernelIdeal.Tile1

end
-- ==== Proof.Stretches.lean ====
/-
  The host operations around the two tiled regions, each result named as a function of what it is computed from.

  Both stretches of host operations compute, from an array `h` of node features and the edge list, the neighbour sums
  `aggOf h src dst`: the source indices (negative ones wrapped by the number of nodes) pick rows of `h`, and the picked
  rows are added into a zero array at the destination indices. The first stretch also counts the edges arriving at each
  node (`degOf`), lays the count out as a column and clamps it below by one (`degCol`), transposes the weight matrices
  and views the bias as a row. None of these functions is opened here: they are names for the operations' composite,
  the same composite the reference applies.

  Read after a stretch run from ANY contents `W`, each buffer a region reads holds the named function of `W` at the
  buffers the stretch reads (`first_*`, `second_*`).
-/
import proofs.«100321_j75015898792666_2_alg».proof.Proof.Gen.KernelIdeal.Launch
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-- The edges' source nodes: row 0 of the edge list. -/
def srcOf (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The edges' destination nodes: row 1 of the edge list. -/
def dstOf (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The neighbour sums: rows of `h` picked at the (wrapped) source nodes, added up at the destination nodes. -/
def aggOf (h : (⟨S100000x128, .f32⟩ : BufTy).Contents (Elt Ideal)) (src dst : (⟨S1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The number of edges arriving at each node. -/
def degOf (dst : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The count as a column, clamped below by one. -/
def degCol (dst : (⟨S1600000, .i32⟩ : BufTy).Contents (Elt Ideal)) : (⟨S100000x1, .f32⟩ : BufTy).Contents (Elt Ideal) :=
  maximumf (shapeCast _ (degOf dst) shapeCasts_S100000_S100000x1)
    (broadcastInDim S100000x1 ![] bcast_S_S100000x1 (constant (F := Ideal) S_ .f32 0x3F800000#32))

/-- A weight matrix transposed. -/
def transposed (w : (⟨S128x128, .f32⟩ : BufTy).Contents (Elt Ideal)) : (⟨S128x128, .f32⟩ : BufTy).Contents (Elt Ideal) :=
  transpose S128x128 [1, 0] w transposes_S128x128_S128x128_1_0

/-- A bias vector viewed as a 1 x 128 row. -/
def biasRow (b : (⟨S128, .f32⟩ : BufTy).Contents (Elt Ideal)) : (⟨S1x128, .f32⟩ : BufTy).Contents (Elt Ideal) :=
  shapeCast _ b shapeCasts_S128_S1x128

variable (W : Valuation τ sig (Elt Ideal))

/-! ## After the first stretch -/

theorem first_src : after (hostOps0 (F := Ideal)) W (Proc.devRef .tc main_v1) = srcOf (W (Proc.devRef .tc main_arg1)) := by
  unfold hostOps0; after_results_simp; rfl

theorem first_dst : after (hostOps0 (F := Ideal)) W (Proc.devRef .tc main_v3) = dstOf (W (Proc.devRef .tc main_arg1)) := by
  unfold hostOps0; after_results_simp; rfl

theorem first_agg : after (hostOps0 (F := Ideal)) W (Proc.devRef .tc main_v20)
    = aggOf (W (Proc.devRef .tc main_arg0)) (srcOf (W (Proc.devRef .tc main_arg1))) (dstOf (W (Proc.devRef .tc main_arg1))) := by
  unfold hostOps0; after_results_simp; rfl

theorem first_deg : after (hostOps0 (F := Ideal)) W (Proc.devRef .tc main_v10) = degCol (dstOf (W (Proc.devRef .tc main_arg1))) := by
  unfold hostOps0; after_results_simp; rfl

theorem first_x : after (hostOps0 (F := Ideal)) W (Proc.devRef .tc main_arg0) = W (Proc.devRef .tc main_arg0) := by
  unfold hostOps0; after_results_simp

theorem first_wl : after (hostOps0 (F := Ideal)) W (Proc.devRef .tc main_v21) = transposed (W (Proc.devRef .tc main_arg2)) := by
  unfold hostOps0; after_results_simp; rfl

theorem first_b : after (hostOps0 (F := Ideal)) W (Proc.devRef .tc main_v23) = biasRow (W (Proc.devRef .tc main_arg3)) := by
  unfold hostOps0; after_results_simp; rfl

theorem first_wr : after (hostOps0 (F := Ideal)) W (Proc.devRef .tc main_v22) = transposed (W (Proc.devRef .tc main_arg4)) := by
  unfold hostOps0; after_results_simp; rfl

theorem first_arg5 : after (hostOps0 (F := Ideal)) W (Proc.devRef .tc main_arg5) = W (Proc.devRef .tc main_arg5) := by
  unfold hostOps0; after_results_simp

theorem first_arg6 : after (hostOps0 (F := Ideal)) W (Proc.devRef .tc main_arg6) = W (Proc.devRef .tc main_arg6) := by
  unfold hostOps0; after_results_simp

theorem first_arg7 : after (hostOps0 (F := Ideal)) W (Proc.devRef .tc main_arg7) = W (Proc.devRef .tc main_arg7) := by
  unfold hostOps0; after_results_simp

/-! ## After the second stretch -/

theorem second_agg : after (hostOps1 (F := Ideal)) W (Proc.devRef .tc main_v34)
    = aggOf (W (Proc.devRef .tc main_v24)) (W (Proc.devRef .tc main_v1)) (W (Proc.devRef .tc main_v3)) := by
  unfold hostOps1; after_results_simp; rfl

theorem second_deg : after (hostOps1 (F := Ideal)) W (Proc.devRef .tc main_v10) = W (Proc.devRef .tc main_v10) := by
  unfold hostOps1; after_results_simp

theorem second_x : after (hostOps1 (F := Ideal)) W (Proc.devRef .tc main_v24) = W (Proc.devRef .tc main_v24) := by
  unfold hostOps1; after_results_simp

theorem second_wl : after (hostOps1 (F := Ideal)) W (Proc.devRef .tc main_v35) = transposed (W (Proc.devRef .tc main_arg5)) := by
  unfold hostOps1; after_results_simp; rfl

theorem second_b : after (hostOps1 (F := Ideal)) W (Proc.devRef .tc main_v37) = biasRow (W (Proc.devRef .tc main_arg6)) := by
  unfold hostOps1; after_results_simp; rfl

theorem second_wr : after (hostOps1 (F := Ideal)) W (Proc.devRef .tc main_v36) = transposed (W (Proc.devRef .tc main_arg7)) := by
  unfold hostOps1; after_results_simp; rfl

end Cert.KernelIdeal.Stretch

end
-- ==== Proof.KernelValue.lean ====
/-
  The idealized kernel's result, as one function of its eight arguments.

  Reading the program backwards from its last segment boundary: the result buffer is the second region's output array,
  which is the layer of the arrays that region was entered with (the second stretch's results: the neighbour sums of
  the first layer's output, the clamped degree column, the first layer's output, the second layer's weights and bias);
  the first layer's output is the first region's output array, the rectified layer of the first stretch's results.
  So the program ends with `twoLayers` of its arguments in the result buffer, the arguments unchanged (`run`).
-/
import proofs.«100321_j75015898792666_2_alg».proof.Proof.KernelRun
import proofs.«100321_j75015898792666_2_alg».proof.Proof.Tile0
import proofs.«100321_j75015898792666_2_alg».proof.Proof.Tile1
import proofs.«100321_j75015898792666_2_alg».proof.Proof.Stretches

set_option maxRecDepth 16384

noncomputable section

namespace Cert.KernelIdeal.Whole

open Cert.KernelIdeal Cert.KernelIdeal.Gen Cert.KernelIdeal.Stretch
open Idealize.ShloMosaic Idealize.ShloMosaic.TcCoe Idealize.SL.Sem
open Idealize.ShloMosaic.Pipeline (Dat)
open Cert.Sage

/-- The first layer's output: the rectified layer of the node features. -/
def hidden (x : (⟨S100000x128, .f32⟩ : BufTy).Contents (Elt Ideal)) (ei : (⟨S2x1600000, .i32⟩ : BufTy).Contents (Elt Ideal))
    (wl1 : (⟨S128x128, .f32⟩ : BufTy).Contents (Elt Ideal)) (b1 : (⟨S128, .f32⟩ : BufTy).Contents (Elt Ideal)) (wr1 : (⟨S128x128, .f32⟩ : BufTy).Contents (Elt Ideal)) :
    S100000x128.Idx → EReal :=
  rectify (layer (aggOf x (srcOf ei) (dstOf ei)) (degCol (dstOf ei)) x (transposed wl1) (biasRow b1) (transposed wr1))

/-- The program's result: the second layer of the first layer's output. -/
def twoLayers (x : (⟨S100000x128, .f32⟩ : BufTy).Contents (Elt Ideal)) (ei : (⟨S2x1600000, .i32⟩ : BufTy).Contents (Elt Ideal))
    (wl1 : (⟨S128x128, .f32⟩ : BufTy).Contents (Elt Ideal)) (b1 : (⟨S128, .f32⟩ : BufTy).Contents (Elt Ideal)) (wr1 : (⟨S128x128, .f32⟩ : BufTy).Contents (Elt Ideal))
    (wl2 : (⟨S128x128, .f32⟩ : BufTy).Contents (Elt Ideal)) (b2 : (⟨S128, .f32⟩ : BufTy).Contents (Elt Ideal)) (wr2 : (⟨S128x128, .f32⟩ : BufTy).Contents (Elt Ideal)) :
    S100000x128.Idx → EReal :=
  layer (aggOf (hidden x ei wl1 b1 wr1) (srcOf ei) (dstOf ei)) (degCol (dstOf ei)) (hidden x ei wl1 b1 wr1)
    (transposed wl2) (biasRow b2) (transposed wr2)

variable (m : (ℓ : Loc nD τ sig) → Buf (Elt Ideal) ℓ) (ρ : Dev nD → PrngReg)

/-! ## Between the regions: what the first region leaves, and what it leaves alone -/

/-- The first region's output array is the first layer's output. -/
theorem first_region_result (c : Dev nD) : W2 m ρ c (Proc.devRef .tc main_v24)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 6).trans ((Tile0.whole (V1 m ρ) c).trans ?_)
  unfold Tile0.result hidden
  show rectify (layer (StableHlo.after hostOps0 (W0 m ρ c) (Proc.devRef .tc main_v20)) (StableHlo.after hostOps0 (W0 m ρ c) (Proc.devRef .tc main_v10))
      (StableHlo.after hostOps0 (W0 m ρ c) (Proc.devRef .tc main_arg0)) (StableHlo.after hostOps0 (W0 m ρ c) (Proc.devRef .tc main_v21))
      (StableHlo.after hostOps0 (W0 m ρ c) (Proc.devRef .tc main_v23)) (StableHlo.after hostOps0 (W0 m ρ c) (Proc.devRef .tc main_v22))) = _
  rw [first_agg, first_deg, first_x, first_wl, first_b, first_wr]

theorem kept_src (c : Dev nD) : W2 m ρ c (Proc.devRef .tc main_v1) = srcOf (m ((c : Thread nD τ).loc main_arg1)) :=
  (W2_of_ne m ρ c main_v1 (by decide)).trans (first_src (W0 m ρ c))

theorem kept_dst (c : Dev nD) : W2 m ρ c (Proc.devRef .tc main_v3) = dstOf (m ((c : Thread nD τ).loc main_arg1)) :=
  (W2_of_ne m ρ c main_v3 (by decide)).trans (first_dst (W0 m ρ c))

/-- The degree column is one of the first region's inputs: the region leaves it as it found it. -/
theorem kept_deg (c : Dev nD) : W2 m ρ c (Proc.devRef .tc main_v10) = degCol (dstOf (m ((c : Thread nD τ).loc main_arg1))) :=
  (W2_arr m ρ c 1).trans ((((dat0 (V1 m ρ) c).arrAt_in 1 rfl _).trans (A_eq0 (V1 m ρ) c 1)).trans (first_deg (W0 m ρ c)))

theorem kept_arg5 (c : Dev nD) : W2 m ρ c (Proc.devRef .tc main_arg5) = m ((c : Thread nD τ).loc main_arg5) :=
  (W2_of_ne m ρ c main_arg5 (by decide)).trans (first_arg5 (W0 m ρ c))

theorem kept_arg6 (c : Dev nD) : W2 m ρ c (Proc.devRef .tc main_arg6) = m ((c : Thread nD τ).loc main_arg6) :=
  (W2_of_ne m ρ c main_arg6 (by decide)).trans (first_arg6 (W0 m ρ c))

theorem kept_arg7 (c : Dev nD) : W2 m ρ c (Proc.devRef .tc main_arg7) = m ((c : Thread nD τ).loc main_arg7) :=
  (W2_of_ne m ρ c main_arg7 (by decide)).trans (first_arg7 (W0 m ρ c))

/-! ## The last boundary -/

/-- The second region's output array, at the last boundary, is the two layers of the arguments. -/
theorem last_boundary_result (c : Dev nD) : W4 m ρ c (Proc.devRef .tc main_v38)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 6).trans ((Tile1.whole (V3 m ρ) c).trans ?_)
  unfold Tile1.result twoLayers
  show layer (StableHlo.after hostOps1 (W2 m ρ c) (Proc.devRef .tc main_v34)) (StableHlo.after hostOps1 (W2 m ρ c) (Proc.devRef .tc main_v10))
      (StableHlo.after hostOps1 (W2 m ρ c) (Proc.devRef .tc main_v24)) (StableHlo.after hostOps1 (W2 m ρ c) (Proc.devRef .tc main_v35))
      (StableHlo.after hostOps1 (W2 m ρ c) (Proc.devRef .tc main_v37)) (StableHlo.after hostOps1 (W2 m ρ c) (Proc.devRef .tc main_v36)) = _
  rw [second_agg, second_deg, second_x, second_wl, second_b, second_wr,
    first_region_result, kept_src, kept_dst, kept_deg, kept_arg5, kept_arg6, kept_arg7]

/-- Every weakly fair execution terminates with the two layers of the arguments in the result buffer and the arguments
    unchanged. -/
theorem run : θ_run defs (onTc (τ := τ) (main (F := Ideal))) ⟨m, fun _ => 0, ρ⟩ (fun r => ∀ c : Dev nD,
      r.2.mem ((c.tc : Thread nD τ).loc main_v38)
        = twoLayers (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (last_boundary_result m ρ c), (h c).2⟩)
    (Cert.KernelIdeal.Ends.result_at_last_boundary m ρ)

end Cert.KernelIdeal.Whole

end
-- ==== Proof.LibColumnForms.lean ====
/-
  A vector laid out as a one-column matrix, by a cast or by a broadcast along a new unit axis: one and the same array.

  Both forms hold entry p of the vector at (p, 0): the cast because the row-major order is unchanged, the broadcast
  because the vector's only axis is sent to the rows. Array programs use the two interchangeably (a reshape to [M, 1]
  against an index with a new trailing axis), so a value computed through one meets a value computed through the other.
-/
import Idealize.ShloMosaic.Lib.Pipeline.Value
import Idealize.ShloMosaic.Lib.ValueIdx
import proofs.«100321_j75015898792666_2_alg».proof.Proof.LibKeepdims

namespace Cert.ColumnForms

open Idealize.ShloMosaic Idealize.ShloMosaic.ValueIdx

variable {α : Type}

/-- A vector broadcast along a new unit axis to an M x 1 column reads, at (p, u), the vector at p. -/
theorem bcast_col_apply {M : ℕ} (s : (⟨1, ![M]⟩ : Shape).Idx → α)
    (h : (⟨1, ![M]⟩ : Shape).BroadcastsInDim ⟨2, ![M, 1]⟩ (![0] : Fin 1 → Fin 2)) (p : Fin M) (u : Fin 1) :
    broadcastInDim ⟨2, ![M, 1]⟩ ![0] h s (ix2 p u) = s (ix1 p) :=
  broadcastInDim_apply ![0] h s (ix2 p u) (ix1 p) fun a => match a with
    | ⟨0, _⟩ => by
      show p.val = if M = 1 then 0 else p.val
      split
      · have := p.isLt; omega
      · rfl

/-- The cast and the broadcast give the same column. -/
theorem shapeCast_eq_bcast_col {M : ℕ} (s : (⟨1, ![M]⟩ : Shape).Idx → α)
    (hc : (⟨1, ![M]⟩ : Shape).ShapeCasts ⟨2, ![M, 1]⟩)
    (hb : (⟨1, ![M]⟩ : Shape).BroadcastsInDim ⟨2, ![M, 1]⟩ (![0] : Fin 1 → Fin 2)) :
    shapeCast ⟨2, ![M, 1]⟩ s hc = broadcastInDim ⟨2, ![M, 1]⟩ ![0] hb s := by
  funext i
  obtain ⟨p, u, rfl⟩ : ∃ (p : Fin M) (u : Fin 1), i = ix2 p u := ⟨i 0, i 1, eq_ix2 i⟩
  rw [Cert.Keepdims.shapeCast_a_a1_apply, bcast_col_apply]

end Cert.ColumnForms
-- ==== Proof.LibClampColumn.lean ====
/-
  Two layouts that array programs write in two ways, as one array.

  A vector of counts clamped below by a constant and kept as a column: one program makes the column first (a cast, the
  row-major order unchanged) and clamps the column against the constant spread over the column; another clamps the
  vector against the constant spread over the vector and then makes the column (a broadcast along a new unit axis).
  Entry (p, 0) of either is the larger of the vector's entry p and the constant (`clamp_then_col`).

  A vector viewed as a one-row matrix: by a cast or by a broadcast along a new leading unit axis; entry (0, q) of either
  is the vector's entry q (`row_cast_eq_bcast`).
-/
import Idealize.ShloMosaic.PureOps.Ideal.Laws
import Idealize.ShloMosaic.Lib.ValueIdx
import Idealize.ShloMosaic.Lib.ValueLayout
import Idealize.ShloMosaic.Lib.Pipeline.Value
import proofs.«100321_j75015898792666_2_alg».proof.Proof.LibKeepdims
import proofs.«100321_j75015898792666_2_alg».proof.Proof.LibColumnForms

noncomputable section

namespace Cert.Layouts

open Idealize.ShloMosaic Idealize.ShloMosaic.ValueIdx

/-- Column first and then the clamp, or the clamp first and then the column: the same M x 1 array. -/
theorem clamp_then_col {M : ℕ} (s : FVec Ideal ⟨1, ![M]⟩ .f32) (w : BitVec 32)
    (hc : (⟨1, ![M]⟩ : Shape).ShapeCasts ⟨2, ![M, 1]⟩)
    (hb : (⟨1, ![M]⟩ : Shape).BroadcastsInDim ⟨2, ![M, 1]⟩ (![0] : Fin 1 → Fin 2))
    (h1 : (⟨0, ![]⟩ : Shape).BroadcastsInDim ⟨2, ![M, 1]⟩ (![] : Fin 0 → Fin 2))
    (h2 : (⟨0, ![]⟩ : Shape).BroadcastsInDim ⟨1, ![M]⟩ (![] : Fin 0 → Fin 1)) :
    maximumf (shapeCast ⟨2, ![M, 1]⟩ s hc) (broadcastInDim ⟨2, ![M, 1]⟩ ![] h1 (constant (F := Ideal) ⟨0, ![]⟩ .f32 w))
      = broadcastInDim ⟨2, ![M, 1]⟩ ![0] hb
          (maximumf s (broadcastInDim ⟨1, ![M]⟩ ![] h2 (constant (F := Ideal) ⟨0, ![]⟩ .f32 w))) := by
  funext i
  obtain ⟨p, u, rfl⟩ : ∃ (p : Fin M) (u : Fin 1), i = ix2 p u := ⟨i 0, i 1, eq_ix2 i⟩
  refine Eq.trans ?_ (Cert.ColumnForms.bcast_col_apply _ hb p u).symm
  show max (shapeCast ⟨2, ![M, 1]⟩ s hc (ix2 p u)) (broadcastInDim ⟨2, ![M, 1]⟩ _ h1 _ (ix2 p u))
    = max (s (ix1 p)) (broadcastInDim ⟨1, ![M]⟩ _ h2 _ (ix1 p))
  rw [Cert.Keepdims.shapeCast_a_a1_apply s hc p u]
  have e1 : broadcastInDim ⟨2, ![M, 1]⟩ _ h1 (constant (F := Ideal) ⟨0, ![]⟩ .f32 w) (ix2 p u)
      = constant (F := Ideal) ⟨0, ![]⟩ .f32 w (fun a => a.elim0) :=
    broadcastInDim_apply ![] h1 (constant (F := Ideal) ⟨0, ![]⟩ .f32 w) (ix2 p u) (fun a => a.elim0) (fun a => a.elim0)
  have e2 : broadcastInDim ⟨1, ![M]⟩ _ h2 (constant (F := Ideal) ⟨0, ![]⟩ .f32 w) (ix1 p)
      = constant (F := Ideal) ⟨0, ![]⟩ .f32 w (fun a => a.elim0) :=
    broadcastInDim_apply ![] h2 (constant (F := Ideal) ⟨0, ![]⟩ .f32 w) (ix1 p) (fun a => a.elim0) (fun a => a.elim0)
  exact congrArg (max (s (ix1 p))) (e1.trans e2.symm)

variable {α : Type}

/-- The cast of a vector to a one-row matrix and its broadcast along a new leading unit axis are the same row. -/
theorem row_cast_eq_bcast {n : ℕ} (b : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ b hc = broadcastInDim ⟨2, ![1, n]⟩ ![1] hb b := by
  funext i
  obtain ⟨u, q, rfl⟩ : ∃ (u : Fin 1) (q : Fin n), i = ix2 u q := ⟨i 0, i 1, eq_ix2 i⟩
  rw [shapeCast_a_1a_apply b hc u q]
  exact (broadcastInDim_apply ![1] hb b (ix2 u q) (ix1 q) fun a => match a with
    | ⟨0, _⟩ => by
      show q.val = if n = 1 then 0 else q.val
      split
      · have := q.isLt; omega
      · rfl).symm

end Cert.Layouts

end
-- ==== Proof.RefValue.lean ====
/-
  The reference's result is the same two layers of its arguments.

  The reference's last operation adds two arrays; unfolding its operations one stage at a time, the sum is the host's
  layer (`Cert.Sage.host_eq`) of: the neighbour sums of the rectified first layer, the clamped degree column, the
  rectified first layer, and the second layer's weights and bias; and the rectified first layer is the host's rectifier
  of the host's layer of the node features. The neighbour sums and the degree count are the very operations the kernel's
  program applies (the same composite, never opened). The reference clamps the degree vector and then makes it a column,
  where the kernel's program makes the column and then clamps it, and it makes the bias a row by a broadcast where the
  kernel's program casts it: the same arrays (`Cert.Layouts`).
-/
import proofs.«100321_j75015898792666_2_alg».proof.Proof.Gen.ReferenceIdeal.Read
import proofs.«100321_j75015898792666_2_alg».proof.Proof.KernelValue
import proofs.«100321_j75015898792666_2_alg».proof.Proof.LibSageLayer
import proofs.«100321_j75015898792666_2_alg».proof.Proof.LibClampColumn

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Cert.Sage Cert.KernelIdeal.Stretch Cert.KernelIdeal.Whole

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal))
  (x5 : (⟨S128x128, .f32⟩ : BufTy).Contents (Elt Ideal)) (x6 : (⟨S128, .f32⟩ : BufTy).Contents (Elt Ideal)) (x7 : (⟨S128x128, .f32⟩ : BufTy).Contents (Elt Ideal))

/-! ## The shared operations, by their names -/

theorem src_eq : val_main_v1 (F := Ideal) x1 = srcOf x1 := rfl
theorem dst_eq : val_main_v3 (F := Ideal) x1 = dstOf x1 := rfl

/-- The first layer's neighbour sums. -/
theorem agg1_eq : val_main_v13 (F := Ideal) x0 x1 = aggOf x0 (srcOf x1) (dstOf x1) := rfl

/-- The degree count. -/
theorem deg_eq : val_main_v17 (F := Ideal) x1 = degOf (dstOf x1) := rfl

/-- The clamped degree column, in the reference's order of the two steps. -/
theorem degcol1_eq : val_main_v20 (F := Ideal) x1 = degCol (dstOf x1) := by
  unfold val_main_v20 val_main_v19 val_main_v18 val_main_cst_3 degCol
  rw [deg_eq]
  exact (Cert.Layouts.clamp_then_col (degOf (dstOf x1)) 0x3F800000#32 Cert.KernelIdeal.Gen.shapeCasts_S100000_S100000x1
    bcast_S100000_S100000x1_0 Cert.KernelIdeal.Gen.bcast_S_S100000x1 bcast_S_S100000).symm

theorem wl1_eq : val_main_v23 (F := Ideal) x2 = transposed x2 := rfl
theorem wr1_eq : val_main_v28 (F := Ideal) x4 = transposed x4 := rfl

/-- The bias row, by the reference's broadcast. -/
theorem b1_eq : val_main_v25 (F := Ideal) x3 = biasRow x3 :=
  (Cert.Layouts.row_cast_eq_bcast x3 Cert.KernelIdeal.Gen.shapeCasts_S128_S1x128 bcast_S128_S1x128_1).symm

/-! ## The first layer -/

theorem hidden_eq : val_main_v31 (F := Ideal) x0 x1 x2 x3 x4 = hidden x0 x1 x2 x3 x4 := by
  have h : val_main_v31 (F := Ideal) x0 x1 x2 x3 x4
      = rectify (layer (val_main_v13 (F := Ideal) x0 x1) (val_main_v20 (F := Ideal) x1) x0 (val_main_v23 (F := Ideal) x2)
          (val_main_v25 (F := Ideal) x3) (val_main_v28 (F := Ideal) x4)) :=
    (host_rectify (val_main_v30 (F := Ideal) x0 x1 x2 x3 x4) bcast_S_S100000x128).trans
      (congrArg rectify (host_eq dot_S100000x128_S128x128_S100000x128_1_0_0_1_n_n_wf (val_main_v13 (F := Ideal) x0 x1)
        (val_main_v20 (F := Ideal) x1) x0 (val_main_v23 (F := Ideal) x2) (val_main_v25 (F := Ideal) x3) (val_main_v28 (F := Ideal) x4)
        bcast_S100000x1_S100000x128_0_1 bcast_S1x128_S100000x128_0_1))
  rw [h, agg1_eq, degcol1_eq, wl1_eq, b1_eq, wr1_eq]
  rfl

/-! ## The second layer -/

/-- The second layer's neighbour sums: the same operations on the first layer's output. -/
theorem agg2_eq : val_main_v41 (F := Ideal) x0 x1 x2 x3 x4 = aggOf (val_main_v31 (F := Ideal) x0 x1 x2 x3 x4) (srcOf x1) (dstOf x1) := rfl

theorem degcol2_eq : val_main_v48 (F := Ideal) x1 = degCol (dstOf x1) := degcol1_eq x1

theorem wl2_eq : val_main_v51 (F := Ideal) x5 = transposed x5 := rfl
theorem wr2_eq : val_main_v56 (F := Ideal) x7 = transposed x7 := rfl
theorem b2_eq : val_main_v53 (F := Ideal) x6 = biasRow x6 :=
  (Cert.Layouts.row_cast_eq_bcast x6 Cert.KernelIdeal.Gen.shapeCasts_S128_S1x128 bcast_S128_S1x128_1).symm

/-- The reference's result is the two layers of its arguments. -/
theorem result_eq : val_main_v58 (F := Ideal) x0 x1 x2 x3 x4 x5 x6 x7 = twoLayers x0 x1 x2 x3 x4 x5 x6 x7 := by
  have h : val_main_v58 (F := Ideal) x0 x1 x2 x3 x4 x5 x6 x7
      = layer (val_main_v41 (F := Ideal) x0 x1 x2 x3 x4) (val_main_v48 (F := Ideal) x1) (val_main_v31 (F := Ideal) x0 x1 x2 x3 x4)
          (val_main_v51 (F := Ideal) x5) (val_main_v53 (F := Ideal) x6) (val_main_v56 (F := Ideal) x7) :=
    host_eq dot_S100000x128_S128x128_S100000x128_1_0_0_1_n_n_wf (val_main_v41 (F := Ideal) x0 x1 x2 x3 x4)
      (val_main_v48 (F := Ideal) x1) (val_main_v31 (F := Ideal) x0 x1 x2 x3 x4) (val_main_v51 (F := Ideal) x5)
      (val_main_v53 (F := Ideal) x6) (val_main_v56 (F := Ideal) x7) bcast_S100000x1_S100000x128_0_1 bcast_S1x128_S100000x128_0_1
  rw [h, agg2_eq, degcol2_eq, wl2_eq, b2_eq, wr2_eq, hidden_eq]
  rfl

end Cert.ReferenceIdeal.RefValue

end
-- ==== Proof.lean ====
/-
  A two-layer mean-aggregating graph convolution: the tiled kernel against the array program.

  Each layer maps node features h to   (A h / d) Wl^T + b + h Wr^T,   where A h adds, into each node's row, the
  feature rows of the nodes with an edge into it, and d is the number of such edges clamped below by one; the first
  layer's output is rectified before it enters the second. The kernel's program computes A h and d with host operations
  and evaluates the rest of each layer in a region tiled over blocks of 10000 nodes; the reference computes everything
  with host operations.

  At the exact instance both programs end with ONE function of the eight arguments in their result buffers
  (`Cert.KernelIdeal.Whole.twoLayers`):
  * the kernel's program, because each region's output array is the layer of the arrays the region was entered with
    (an entry of the layer reads one row of the row-tiled inputs, so the ten blocks of rows written back are the blocks
    of the whole-array layer and they cover the array), and the host operations between the regions are named, not opened;
  * the reference, because its chain of host operations unfolds, stage by stage, into the same layer of the same named
    operations, up to two layouts written differently (the clamped degree column, the bias row).
  The two matrix products of a layer are read as plain sums over the contracted axis on both sides; nothing else of the
  arithmetic is rearranged, so the inputs' finiteness is never used. The idealization pass rewrote nothing, so
  `preserves` has nothing to state. The three frame claims are the generated frame certificates and the reference's
  generated run with its result forgotten.
-/
import proofs.«100321_j75015898792666_2_alg».proof.Defs
import proofs.«100321_j75015898792666_2_alg».proof.Proof.Gen.Kernel
import proofs.«100321_j75015898792666_2_alg».proof.Proof.Gen.Kernel.Skeleton
import proofs.«100321_j75015898792666_2_alg».proof.Proof.Gen.Kernel.Launch
import proofs.«100321_j75015898792666_2_alg».proof.Proof.Gen.Kernel.Points
import proofs.«100321_j75015898792666_2_alg».proof.Proof.Gen.Kernel.Frame
import proofs.«100321_j75015898792666_2_alg».proof.Proof.Gen.KernelIdeal
import proofs.«100321_j75015898792666_2_alg».proof.Proof.Gen.KernelIdeal.Skeleton
import proofs.«100321_j75015898792666_2_alg».proof.Proof.Gen.KernelIdeal.Launch
import proofs.«100321_j75015898792666_2_alg».proof.Proof.Gen.KernelIdeal.Points
import proofs.«100321_j75015898792666_2_alg».proof.Proof.Gen.KernelIdeal.Frame
import proofs.«100321_j75015898792666_2_alg».proof.Proof.Gen.ReferenceIdeal
import proofs.«100321_j75015898792666_2_alg».proof.Proof.Gen.Pre_finite_inputs
import proofs.«100321_j75015898792666_2_alg».proof.Proof.Gen.ReferenceIdeal.Run
import proofs.«100321_j75015898792666_2_alg».proof.Proof.Gen.ReferenceIdeal.Read
import proofs.«100321_j75015898792666_2_alg».proof.Proof.KernelValue
import proofs.«100321_j75015898792666_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the arguments both programs end with the two layers of the arguments in their result
    buffers: the kernel's by its run read back through the regions, the reference's by its run read stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v58_eq, Cert.ReferenceIdeal.RefValue.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
